-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x256 : Shape := ⟨3, ![32, 256, 256]⟩
abbrev S32x256x2048 : Shape := ⟨3, ![32, 256, 2048]⟩
abbrev S_ : Shape := ⟨0, ![]⟩

class Facts : Prop where
  bcast_S_S32x256x256 : S_.BroadcastsInDim S32x256x256 (![] : Fin 0 → Fin S32x256x256.rank)
  reducesTo_S32x256x256_S_d0_1_2 : S32x256x256.ReducesTo [0, 1, 2] S_
  h_S_ : 0 < S_.numel
  bcast_S_S32x256x2048 : S_.BroadcastsInDim S32x256x2048 (![] : Fin 0 → Fin S32x256x2048.rank)
  reducesTo_S32x256x2048_S_d0_1_2 : S32x256x2048.ReducesTo [0, 1, 2] S_

variable [Facts]

def fn {F : FTy → Type} [FloatOps F] (main_arg0 : FVec F S32x256x256 .f32) (main_arg1 : FVec F S32x256x2048 .f32) : IVec S_ 1 :=
  let main_v0 : FVec F S32x256x256 .f32 := Host.absf main_arg0
  let main_cst : FVec F S_ .f32 := constant S_ .f32 0x7F800000#32
  let main_v1 : FVec F S32x256x256 .f32 := broadcastInDim S32x256x256 ![] bcast_S_S32x256x256 main_cst
  let main_v2 : IVec S32x256x256 1 := cmpf .olt main_v0 main_v1
  let main_c : IVec S_ 1 := constantI S_ 1 1#1
  let main_v3 : IVec S_ 1 := (fun x v => Host.reduce IntOp.andi x v reducesTo_S32x256x256_S_d0_1_2 h_S_) main_v2 main_c
  let main_v4 : FVec F S32x256x2048 .f32 := Host.absf main_arg1
  let main_cst_0 : FVec F S_ .f32 := constant S_ .f32 0x7F800000#32
  let main_v5 : FVec F S32x256x2048 .f32 := broadcastInDim S32x256x2048 ![] bcast_S_S32x256x2048 main_cst_0
  let main_v6 : IVec S32x256x2048 1 := cmpf .olt main_v4 main_v5
  let main_c_1 : IVec S_ 1 := constantI S_ 1 1#1
  let main_v7 : IVec S_ 1 := (fun x v => Host.reduce IntOp.andi x v reducesTo_S32x256x2048_S_d0_1_2 h_S_) main_v6 main_c_1
  let main_v8 : IVec S_ 1 := andi main_v3 main_v7
  main_v8
-- ==== Kernel.lean ====
abbrev S32x256x256 : Shape := ⟨3, ![32, 256, 256]⟩
abbrev S32x256x2048 : Shape := ⟨3, ![32, 256, 2048]⟩
abbrev S4x256x256 : Shape := ⟨3, ![4, 256, 256]⟩
abbrev S4x256x2048 : Shape := ⟨3, ![4, 256, 2048]⟩
abbrev S4x256x512 : Shape := ⟨3, ![4, 256, 512]⟩

abbrev nBuf : Space → Nat
  | .hbm => 3
  | .vmem => 6
  | .smem => 0
  | _ => 0

abbrev bufTy : (tb : Table) → Fin (tcTables nBuf tb) → BufTy
  | .hbm, ⟨0, _⟩ => ⟨S32x256x256, .f32⟩
  | .hbm, ⟨1, _⟩ => ⟨S32x256x2048, .f32⟩
  | .hbm, ⟨2, _⟩ => ⟨S32x256x2048, .f32⟩
  | .local _ .vmem, ⟨0, _⟩ => ⟨S4x256x256, .f32⟩
  | .local _ .vmem, ⟨1, _⟩ => ⟨S4x256x256, .f32⟩
  | .local _ .vmem, ⟨2, _⟩ => ⟨S4x256x2048, .f32⟩
  | .local _ .vmem, ⟨3, _⟩ => ⟨S4x256x2048, .f32⟩
  | .local _ .vmem, ⟨4, _⟩ => ⟨S4x256x2048, .f32⟩
  | .local _ .vmem, ⟨5, _⟩ => ⟨S4x256x2048, .f32⟩
  | _, _ => ⟨S32x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x256x256_S4x256x256_0_0_0 : ∀ a, (![0, 0, 0] : Fin 3 → Nat) a + S4x256x256.size a ≤ S4x256x256.size a
  h_S4x256x256 : 0 < S4x256x256.numel
  bitsLt_bf16_f32 : FTy.bits .bf16 < FTy.bits .f32
  inb_S4x256x2048_S4x256x512_0_0_0 : ∀ a, (![0, 0, 0] : Fin 3 → Nat) a + S4x256x512.size a ≤ S4x256x2048.size a
  h_S4x256x512 : 0 < S4x256x512.numel
  inb_S4x256x2048_S4x256x512_0_0_512 : ∀ a, (![0, 0, 512] : Fin 3 → Nat) a + S4x256x512.size a ≤ S4x256x2048.size a
  inb_S4x256x2048_S4x256x512_0_0_1024 : ∀ a, (![0, 0, 1024] : Fin 3 → Nat) a + S4x256x512.size a ≤ S4x256x2048.size a
  inb_S4x256x2048_S4x256x512_0_0_1536 : ∀ a, (![0, 0, 1536] : Fin 3 → Nat) a + S4x256x512.size a ≤ S4x256x2048.size a
  dot_S4x256x256_S4x256x512_S4x256x512_2_1_1_2_0_0_wf : DotDims.WF S4x256x256 S4x256x512 S4x256x512 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256x256.size a ≤ S32x256x256.size a
  hwx0_0 : ∀ i : grid0.Coords, EltTy.bits .f32 = 32 ∨ (Rect.block (s := S32x256x256) S4x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x2048.size a ≤ S32x256x2048.size a
  hwx0_1 : ∀ i : grid0.Coords, EltTy.bits .f32 = 32 ∨ (Rect.block (s := S32x256x2048) S4x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2048.size a ≤ S32x256x2048.size a
  hwx0_2 : ∀ i : grid0.Coords, EltTy.bits .f32 = 32 ∨ (Rect.block (s := S32x256x2048) S4x256x2048.size (cc0_transform_2 i) (hinb0_2 i)).WholeWords (EltTy.packing .f32)

variable [Facts₀]

def dot_S4x256x256_S4x256x512_S4x256x512_2_1_1_2_0_0 : DotDims S4x256x256 S4x256x512 S4x256x512 where
  lhsContracting := [2]
  rhsContracting := [1]
  lhsNonContracting := [1]
  rhsNonContracting := [2]
  lhsBatch := [0]
  rhsBatch := [0]
  wf := dot_S4x256x256_S4x256x512_S4x256x512_2_1_1_2_0_0_wf

abbrev win0_0 : Pipeline.Window sig grid0 :=
  Pipeline.Window.ofSpec (Memref.whole main_arg0) S4x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x256x256 : Shape := ⟨3, ![32, 256, 256]⟩
abbrev S32x256x2048 : Shape := ⟨3, ![32, 256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S32x256x256, .f32⟩
  | .hbm, ⟨1, _⟩ => ⟨S32x256x2048, .f32⟩
  | .hbm, ⟨2, _⟩ => ⟨S32x256x2048, .f32⟩
  | _, _ => ⟨S32x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S32x256x256_S32x256x2048_S32x256x2048_2_1_1_2_0_0_wf : DotDims.WF S32x256x256 S32x256x2048 S32x256x2048 [2] [1] [1] [2] [0] [0]

variable [Facts₀]

def dot_S32x256x256_S32x256x2048_S32x256x2048_2_1_1_2_0_0 : DotDims S32x256x256 S32x256x2048 S32x256x2048 where
  lhsContracting := [2]
  rhsContracting := [1]
  lhsNonContracting := [1]
  rhsNonContracting := [2]
  lhsBatch := [0]
  rhsBatch := [0]
  wf := dot_S32x256x256_S32x256x2048_S32x256x2048_2_1_1_2_0_0_wf

class Facts : Prop extends Facts₀ where

variable [Facts]
-- ==== Proof.Product.lean ====
/-
  The batched matrix product that both programs compute, stated once as a function of the two operand arrays.

  For a stack of matrices, entry (b, c, s) of the result is the sum over t of x[b, c, t] · p[b, t, s], taken in the
  extended reals: a finite sum of products, with no accumulator, no rounding and no order of summation left in it
  (addition of extended reals is commutative and associative, so the sum over the 256 values of t is one number
  however it is grouped).  It is written twice, at the two sizes the proof meets: for the whole arrays (32 matrices)
  and for one block of four consecutive matrices.  That a block of the whole product is the product of the operands'
  blocks is the content of the kernel's side of the proof; that the host's contraction is the whole product is the
  reference's side.
-/
import Idealize.ShloMosaic.PureOps.Ideal
import Idealize.ShloMosaic.Lib.ValueIdx

noncomputable section

namespace Cert.Product

open Idealize.ShloMosaic Idealize.ShloMosaic.ValueIdx

/-- The whole arrays: 32 matrices of 256 × 256 against 32 matrices of 256 × 2048. -/
def ofArrays (x : (⟨3, ![32, 256, 256]⟩ : Shape).Idx → EReal) (p : (⟨3, ![32, 256, 2048]⟩ : Shape).Idx → EReal) :
    (⟨3, ![32, 256, 2048]⟩ : Shape).Idx → EReal :=
  fun i => ∑ k : Fin 256, x (ix3 (n0 := 32) (n1 := 256) (n2 := 256) (i 0) (i 1) k)
    * p (ix3 (n0 := 32) (n1 := 256) (n2 := 2048) (i 0) k (i 2))

/-- One block: four matrices of 256 × 256 against four of 256 × 2048. -/
def ofBlocks (x : (⟨3, ![4, 256, 256]⟩ : Shape).Idx → EReal) (p : (⟨3, ![4, 256, 2048]⟩ : Shape).Idx → EReal) :
    (⟨3, ![4, 256, 2048]⟩ : Shape).Idx → EReal :=
  fun i => ∑ k : Fin 256, x (ix3 (n0 := 4) (n1 := 256) (n2 := 256) (i 0) (i 1) k)
    * p (ix3 (n0 := 4) (n1 := 256) (n2 := 2048) (i 0) k (i 2))

/-- The whole product at explicit coordinates. -/
theorem ofArrays_apply (x : (⟨3, ![32, 256, 256]⟩ : Shape).Idx → EReal) (p : (⟨3, ![32, 256, 2048]⟩ : Shape).Idx → EReal)
    (b : Fin 32) (c : Fin 256) (s : Fin 2048) :
    ofArrays x p (ix3 b c s) = ∑ k : Fin 256, x (ix3 b c k) * p (ix3 b k s) := rfl

/-- The block product at explicit coordinates. -/
theorem ofBlocks_apply (x : (⟨3, ![4, 256, 256]⟩ : Shape).Idx → EReal) (p : (⟨3, ![4, 256, 2048]⟩ : Shape).Idx → EReal)
    (b : Fin 4) (c : Fin 256) (s : Fin 2048) :
    ofBlocks x p (ix3 b c s) = ∑ k : Fin 256, x (ix3 b c k) * p (ix3 b k s) := rfl

/-- A block of the whole product is the product of the operands' blocks.  Let `x0` hold matrices 4q … 4q+3 of `X`
    and `x1` matrices 4q … 4q+3 of `P`, each entry in its place.  Then entry (b, c, s) of the block product is entry
    (4q + b, c, s) of the whole product: both are the same sum of the same 256 products, because the product of one
    matrix pair reads no other pair. -/
theorem ofBlocks_eq_ofArrays (X : (⟨3, ![32, 256, 256]⟩ : Shape).Idx → EReal) (P : (⟨3, ![32, 256, 2048]⟩ : Shape).Idx → EReal)
    (x0 : (⟨3, ![4, 256, 256]⟩ : Shape).Idx → EReal) (x1 : (⟨3, ![4, 256, 2048]⟩ : Shape).Idx → EReal)
    (q : Nat) (hq : q ≤ 7)
    (h0 : ∀ (b : Fin 4) (c k : Fin 256), x0 (ix3 b c k) = X (ix3 (⟨q * 4 + b.val, by have := b.isLt; omega⟩ : Fin 32) c k))
    (h1 : ∀ (b : Fin 4) (k : Fin 256) (s : Fin 2048), x1 (ix3 b k s) = P (ix3 (⟨q * 4 + b.val, by have := b.isLt; omega⟩ : Fin 32) k s))
    (b : Fin 4) (c : Fin 256) (s : Fin 2048) :
    ofBlocks x0 x1 (ix3 b c s) = ofArrays X P (ix3 (⟨q * 4 + b.val, by have := b.isLt; omega⟩ : Fin 32) c s) := by
  rw [ofBlocks_apply, ofArrays_apply]
  exact Finset.sum_congr rfl fun k _ => by rw [h0, h1]

end Cert.Product

end
-- ==== Proof.KernelBlock.lean ====
/-
  What the kernel's body leaves in its output block, at the extended reals.

  At one grid point the body holds a block `x0` of four 256 × 256 matrices and a block `x1` of four 256 × 2048
  matrices.  It cuts the 2048 columns of `x1` into four slabs of 512 columns; for each slab it multiplies, matrix by
  matrix, `x0` with the slab (a contraction over the 256 shared coordinates, accumulated into zero) and stores the
  4 × 256 × 512 result in the same columns of the output block.  The change of float format before the product is the
  identity on the extended reals, and zero plus a sum is the sum, so entry (b, c, s) of a slab's product is
  Σ_k x0[b, c, k] · slab[b, k, s], and slab[b, k, s] is x1[b, k, o + s] for the slab that starts at column o.  Hence
  every store writes, at the place it writes, the entry of ONE function of the block index — the product of the
  four matrix pairs, `Cert.Product.ofBlocks x0 x1` — and as the four slabs tile the block, the block ends holding that
  product.
-/
import proofs.«164552_j26577257627700_2_alg».proof.Proof.Gen.KernelIdeal.Frame
import proofs.«164552_j26577257627700_2_alg».proof.Proof.Product
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx

/-! ## The operand indices of the body's contraction, axis by axis

The contraction pairs the matrices by their first coordinate (the batch axis of both operands), keeps the left
operand's rows and the right operand's columns, and sums over the left operand's last axis against the right
operand's middle axis. -/

theorem lhs_batch (i : S4x256x512.Idx) (q : dot_S4x256x256_S4x256x512_S4x256x512_2_1_1_2_0_0.contr.Idx) :
    (dot_S4x256x256_S4x256x512_S4x256x512_2_1_1_2_0_0.lhsIdx i q 0).val = (i 0).val := by
  unfold DotDims.lhsIdx
  rw [dif_pos (show (0 : Fin S4x256x256.rank) ∈ dot_S4x256x256_S4x256x512_S4x256x512_2_1_1_2_0_0.lhsBatch by decide)]
  rfl
theorem lhs_row (i : S4x256x512.Idx) (q : dot_S4x256x256_S4x256x512_S4x256x512_2_1_1_2_0_0.contr.Idx) :
    (dot_S4x256x256_S4x256x512_S4x256x512_2_1_1_2_0_0.lhsIdx i q 1).val = (i 1).val := by
  unfold DotDims.lhsIdx
  rw [dif_neg (show ¬(1 : Fin S4x256x256.rank) ∈ dot_S4x256x256_S4x256x512_S4x256x512_2_1_1_2_0_0.lhsBatch by decide), dif_pos (show (1 : Fin S4x256x256.rank) ∈ dot_S4x256x256_S4x256x512_S4x256x512_2_1_1_2_0_0.lhsNonContracting by decide)]
  rfl
theorem lhs_summed (i : S4x256x512.Idx) (q : dot_S4x256x256_S4x256x512_S4x256x512_2_1_1_2_0_0.contr.Idx) :
    (dot_S4x256x256_S4x256x512_S4x256x512_2_1_1_2_0_0.lhsIdx i q 2).val = (q ⟨0, by decide⟩).val :=
  dot_S4x256x256_S4x256x512_S4x256x512_2_1_1_2_0_0.lhsIdx_val_of_single rfl i q
theorem rhs_batch (i : S4x256x512.Idx) (q : dot_S4x256x256_S4x256x512_S4x256x512_2_1_1_2_0_0.contr.Idx) :
    (dot_S4x256x256_S4x256x512_S4x256x512_2_1_1_2_0_0.rhsIdx i q 0).val = (i 0).val := by
  unfold DotDims.rhsIdx
  rw [dif_pos (show (0 : Fin S4x256x512.rank) ∈ dot_S4x256x256_S4x256x512_S4x256x512_2_1_1_2_0_0.rhsBatch by decide)]
  rfl
theorem rhs_summed (i : S4x256x512.Idx) (q : dot_S4x256x256_S4x256x512_S4x256x512_2_1_1_2_0_0.contr.Idx) :
    (dot_S4x256x256_S4x256x512_S4x256x512_2_1_1_2_0_0.rhsIdx i q 1).val = (q ⟨0, by decide⟩).val :=
  dot_S4x256x256_S4x256x512_S4x256x512_2_1_1_2_0_0.rhsIdx_val_of_single rfl i q
theorem rhs_col (i : S4x256x512.Idx) (q : dot_S4x256x256_S4x256x512_S4x256x512_2_1_1_2_0_0.contr.Idx) :
    (dot_S4x256x256_S4x256x512_S4x256x512_2_1_1_2_0_0.rhsIdx i q 2).val = (i 2).val := by
  unfold DotDims.rhsIdx
  rw [dif_neg (show ¬(2 : Fin S4x256x512.rank) ∈ dot_S4x256x256_S4x256x512_S4x256x512_2_1_1_2_0_0.rhsBatch by decide), dif_pos (show (2 : Fin S4x256x512.rank) ∈ dot_S4x256x256_S4x256x512_S4x256x512_2_1_1_2_0_0.rhsNonContracting by decide)]
  rfl

/-- The product of four matrix pairs into a zero accumulator, read at (b, r, s): the sum over the 256 shared
    coordinates of the left matrix b at (r, k) times the right matrix b at (k, s). -/
theorem matmul_at (lhs : FVec Ideal S4x256x256 .bf16) (rhs : FVec Ideal S4x256x512 .bf16) (b : Fin 4) (r : Fin 256) (s : Fin 512) :
    matmul (F := Ideal) dot_S4x256x256_S4x256x512_S4x256x512_2_1_1_2_0_0 none lhs rhs (constant (F := Ideal) S4x256x512 .f32 0x00000000#32) (ix3 b r s)
      = ∑ k : Fin 256, lhs (ix3 b r k) * rhs (ix3 b k s) := by
  simp only [matmul]
  rw [Ideal.matmul_constant_zero_apply, ← Equiv.sum_comp (contrEquiv1 dot_S4x256x256_S4x256x512_S4x256x512_2_1_1_2_0_0 256 rfl rfl).symm]
  refine Finset.sum_congr rfl fun k _ => ?_
  have hk := contrEquiv1_symm_val dot_S4x256x256_S4x256x512_S4x256x512_2_1_1_2_0_0 256 rfl rfl k
  have el : dot_S4x256x256_S4x256x512_S4x256x512_2_1_1_2_0_0.lhsIdx (ix3 b r s) ((contrEquiv1 dot_S4x256x256_S4x256x512_S4x256x512_2_1_1_2_0_0 256 rfl rfl).symm k) = ix3 b r k := funext fun a => Fin.ext (by
    match a with
    | ⟨0, _⟩ => exact lhs_batch _ _
    | ⟨1, _⟩ => exact lhs_row _ _
    | ⟨2, _⟩ => exact (lhs_summed _ _).trans hk)
  have er : dot_S4x256x256_S4x256x512_S4x256x512_2_1_1_2_0_0.rhsIdx (ix3 b r s) ((contrEquiv1 dot_S4x256x256_S4x256x512_S4x256x512_2_1_1_2_0_0 256 rfl rfl).symm k) = ix3 b k s := funext fun a => Fin.ext (by
    match a with
    | ⟨0, _⟩ => exact rhs_batch _ _
    | ⟨1, _⟩ => exact (rhs_summed _ _).trans hk
    | ⟨2, _⟩ => exact rhs_col _ _)
  rw [el, er]

/-! ## One slab's payload -/

/-- The body's arithmetic for one slab `v` of 512 columns, read at (b, r, s): the change of float format does nothing
    to an extended real, so it is the plain sum of products. -/
theorem slab_product_at (x0 : Vec Ideal S4x256x256 .f32) (v : Vec Ideal S4x256x512 .f32) (b : Fin 4) (r : Fin 256) (s : Fin 512) :
    k0_pay2 (F := Ideal) x0 v (ix3 b r s) = ∑ k : Fin 256, x0 (ix3 b r k) * v (ix3 b k s) := by
  unfold k0_pay2 k0_pay1
  exact matmul_at _ _ b r s

theorem hz : (![0, 0, 0] : Fin 3 → Nat) = fun _ => 0 := funext fun a => by fin_cases a <;> rfl

/-- The slab that starts at column `o`: its payload at a local index is the block product at the place the store
    puts it — the same matrix and row, column `o` plus the local column. -/
theorem slab_at (x0 : Vec Ideal S4x256x256 .f32) (x1 : Vec Ideal S4x256x2048 .f32) (o : Nat)
    (inb : ∀ a, (![0, 0, o] : Fin 3 → Nat) a + S4x256x512.size a ≤ S4x256x2048.size a)
    (x : (Rect.unit (s := S4x256x2048) ![0, 0, o] S4x256x512.size inb).shape.Idx) :
    k0_pay2 (F := Ideal) (View.ld x0 r0_0) (View.ld x1 (Rect.unit (s := S4x256x2048) ![0, 0, o] S4x256x512.size inb)) x
      = Cert.Product.ofBlocks x0 x1 ((Rect.unit (s := S4x256x2048) ![0, 0, o] S4x256x512.size inb).emb x) := by
  obtain ⟨b, r, s, rfl⟩ : ∃ (b : Fin 4) (r : Fin 256) (s : Fin 512), x = ix3 b r s := ⟨x 0, x 1, x 2, eq_ix3 x⟩
  have ho : o + 512 ≤ 2048 := inb 2
  have he : (Rect.unit (s := S4x256x2048) ![0, 0, o] S4x256x512.size inb).emb (ix3 b r s)
      = ix3 b r (⟨o + s.val, by have := s.isLt; omega⟩ : Fin 2048) := funext fun a => Fin.ext (by
    match a with
    | ⟨0, _⟩ => show 0 + 1 * b.val = b.val; omega
    | ⟨1, _⟩ => show 0 + 1 * r.val = r.val; omega
    | ⟨2, _⟩ => show o + 1 * s.val = o + s.val; omega)
  rw [slab_product_at, View.ld_unit_zero hz, he, Cert.Product.ofBlocks_apply]
  refine Finset.sum_congr rfl fun k _ => ?_
  refine congrArg (x0 (ix3 b r k) * ·) (congrArg x1 (funext fun a => Fin.ext ?_))
  match a with
  | ⟨0, _⟩ => show 0 + 1 * b.val = b.val; omega
  | ⟨1, _⟩ => show 0 + 1 * k.val = k.val; omega
  | ⟨2, _⟩ => show o + 1 * s.val = o + s.val; omega

/-! ## The whole block -/

/-- After the body the output block holds the product of the four matrix pairs: each of the four stores writes that
    function's entries where it writes, and together they cover the block. -/
theorem out_eq (x0 : Vec Ideal S4x256x256 .f32) (x1 : Vec Ideal S4x256x2048 .f32) :
    out0_2 (F := Ideal) x0 x1 = Cert.Product.ofBlocks x0 x1 := by
  funext y
  unfold out0_2
  refine View.canon_apply_of_pieces (Val := Elt Ideal) (e := .f32) (Cert.Product.ofBlocks x0 x1) _ ?_ y (cover0_2 _ _ _ _ y)
  intro p hp x
  simp only [List.mem_cons, List.not_mem_nil, or_false] at hp
  rcases hp with rfl | rfl | rfl | rfl
  · exact slab_at x0 x1 1536 _ x
  · exact slab_at x0 x1 1024 _ x
  · exact slab_at x0 x1 512 _ x
  · exact slab_at x0 x1 0 _ x

end Cert.KernelIdeal.Block

end
-- ==== Proof.KernelArray.lean ====
/-
  The kernel's result array is the whole product.

  The grid has eight points; point t works on matrices 4t … 4t+3 of both operands and writes matrices 4t … 4t+3 of
  the result (all three index maps send t to block (t, 0, 0)).  At a point the body leaves the product of the four
  matrix pairs it was given (the block lemma), and those are matrices 4t … 4t+3 of the arguments, so what the point
  writes back is exactly block t of the whole product of the argument arrays.  Every matrix index 0 … 31 lies in the
  block of point ⌊index / 4⌋, so the eight blocks cover the result array, which therefore ends as the whole product.
-/
import proofs.«164552_j26577257627700_2_alg».proof.Proof.Gen.KernelIdeal.Value
import proofs.«164552_j26577257627700_2_alg».proof.Proof.KernelBlock

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The three index maps over the eight points: both inputs' blocks move with the output's along the matrix axis,
    and no window moves along the other two axes. -/
theorem index_facts : ∀ t : Fin cfg0.N,
    win0_0.index t (0 : Fin 3) = win0_2.index t (0 : Fin 3) ∧ win0_0.index t (1 : Fin 3) = 0 ∧ win0_0.index t (2 : Fin 3) = 0
    ∧ win0_1.index t (0 : Fin 3) = win0_2.index t (0 : Fin 3) ∧ win0_1.index t (1 : Fin 3) = 0 ∧ win0_1.index t (2 : Fin 3) = 0
    ∧ win0_2.index t (1 : Fin 3) = 0 ∧ win0_2.index t (2 : Fin 3) = 0 ∧ win0_2.index t (0 : Fin 3) ≤ 7 :=
  (by decide +kernel : ∀ t : Fin grid0.N, _)

/-- Every one of the eight blocks of four matrices is some point's. -/
theorem index_onto : ∀ q : Fin 8, ∃ t : Fin cfg0.N, win0_2.index t = ![q.val, 0, 0] :=
  (by decide +kernel : ∀ q : Fin 8, ∃ t : Fin grid0.N, win0_2.index t = ![q.val, 0, 0])

/-- What point `t` writes back is block `t` of the whole product of the argument arrays. -/
theorem flushed_eq (c : Dev nD) (t : Fin cfg0.N) :
    (dats m 0 c).flushed 2 t
      = ((cfg0.win 2).blk t).view.read (Elt Ideal) (Cert.Product.ofArrays (V m c main_arg0) (V m c main_arg1)) := by
  rw [Cert.KernelIdeal.Value.flushed2]
  have hb := Cert.KernelIdeal.Block.out_eq (iblk m c 0 t) (iblk m c 1 t)
  rw [hb]
  obtain ⟨e0, e1, e2, e3, e4, e5, e6, e7, e8⟩ := index_facts t
  funext j
  obtain ⟨b, r, s, rfl⟩ : ∃ (b : Fin 4) (r : Fin 256) (s : Fin 2048), j = ix3 b r s := ⟨j 0, j 1, j 2, eq_ix3 j⟩
  show Cert.Product.ofBlocks (iblk m c 0 t) (iblk m c 1 t) (ix3 b r s)
    = Cert.Product.ofArrays (V m c main_arg0) (V m c main_arg1) (((cfg0.win 2).blk t).view.emb (ix3 b r s))
  have hE : ((cfg0.win 2).blk t).view.emb (ix3 b r s)
      = ix3 (⟨win0_2.index t (0 : Fin 3) * 4 + b.val, by have := b.isLt; omega⟩ : Fin 32) r s := funext fun a => Fin.ext (by
    match a with
    | ⟨0, _⟩ => show win0_2.index t (0 : Fin 3) * 4 + 1 * b.val = win0_2.index t (0 : Fin 3) * 4 + b.val; omega
    | ⟨1, _⟩ => show win0_2.index t (1 : Fin 3) * 256 + 1 * r.val = r.val; omega
    | ⟨2, _⟩ => show win0_2.index t (2 : Fin 3) * 2048 + 1 * s.val = s.val; omega)
  rw [hE]
  refine Cert.Product.ofBlocks_eq_ofArrays (V m c main_arg0) (V m c main_arg1) (iblk m c 0 t) (iblk m c 1 t)
    (win0_2.index t (0 : Fin 3)) e8 ?_ ?_ b r s
  · intro b' c' k
    show V m c main_arg0 (((cfg0.win 0).blk t).view.emb (ix3 b' c' k)) = V m c main_arg0 _
    refine congrArg (V m c main_arg0) (funext fun a => Fin.ext ?_)
    match a with
    | ⟨0, _⟩ => show win0_0.index t (0 : Fin 3) * 4 + 1 * b'.val = win0_2.index t (0 : Fin 3) * 4 + b'.val; omega
    | ⟨1, _⟩ => show win0_0.index t (1 : Fin 3) * 256 + 1 * c'.val = c'.val; omega
    | ⟨2, _⟩ => show win0_0.index t (2 : Fin 3) * 256 + 1 * k.val = k.val; omega
  · intro b' k s'
    show V m c main_arg1 (((cfg0.win 1).blk t).view.emb (ix3 b' k s')) = V m c main_arg1 _
    refine congrArg (V m c main_arg1) (funext fun a => Fin.ext ?_)
    match a with
    | ⟨0, _⟩ => show win0_1.index t (0 : Fin 3) * 4 + 1 * b'.val = win0_2.index t (0 : Fin 3) * 4 + b'.val; omega
    | ⟨1, _⟩ => show win0_1.index t (1 : Fin 3) * 256 + 1 * k.val = k.val; omega
    | ⟨2, _⟩ => show win0_1.index t (2 : Fin 3) * 2048 + 1 * s'.val = s'.val; omega

/-- An index of the result array is in point `t`'s block iff each coordinate is in the block's range on its axis. -/
theorem mem_blk (t : Fin cfg0.N) (i : S32x256x2048.Idx) :
    i ∈ ((cfg0.win 2).blk t).view.set ↔ ∀ a : Fin 3, win0_2.index t a * S4x256x2048.size a ≤ (i a).val
      ∧ (i a).val < win0_2.index t a * S4x256x2048.size a + S4x256x2048.size a := by
  show i ∈ ((View.whole main_v0).slice (win0_2.rect t)).set ↔ _
  rw [View.set_slice_whole, Rect.mem_set_unit]
  exact Iff.rfl

/-- The eight blocks cover the result array: matrix `n` is in the block of point ⌊n / 4⌋. -/
theorem cover (i : S32x256x2048.Idx) :
    ∃ t : Fin cfg0.N, (cfg0.win 2).flush t = true ∧ i ∈ ((cfg0.win 2).blk t).view.set := by
  have hi0 : (i 0).val < 32 := (i 0).isLt
  have hi1 : (i 1).val < 256 := (i 1).isLt
  have hi2 : (i 2).val < 2048 := (i 2).isLt
  obtain ⟨t, ht⟩ := index_onto ⟨(i 0).val / 4, by omega⟩
  have q0 : win0_2.index t (0 : Fin 3) = (i 0).val / 4 := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 256 ≤ (i 1).val ∧ (i 1).val < win0_2.index t (1 : Fin 3) * 256 + 256; omega
  | ⟨2, _⟩ => show win0_2.index t (2 : Fin 3) * 2048 ≤ (i 2).val ∧ (i 2).val < win0_2.index t (2 : Fin 3) * 2048 + 2048; omega

/-- The result array after the run is the whole product of the argument arrays. -/
theorem final (c : Dev nD) :
    (dats m 0 c).arrAt 2 cfg0.N
      = Cert.Product.ofArrays (m ((c : Thread nD τ).loc main_arg0)) (m ((c : Thread nD τ).loc main_arg1)) :=
  (dats m 0 c).arrAt_eq_of_cover 2 (Cert.Product.ofArrays (V m c main_arg0) (V m c main_arg1))
    (fun t _ => flushed_eq m c t) cover

/-- Every weakly fair execution of the kernel's program ends with the result array at the whole product of the
    arguments as launched, and the arguments unchanged. -/
theorem run : θ_run defs (onTc (τ := τ) (main (F := Ideal))) ⟨m, fun _ => 0, ρ⟩ fun r => ∀ c : Dev nD,
      r.2.mem ((c : Thread nD τ).loc main_v0)
        = Cert.Product.ofArrays (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.ReferenceProduct.lean ====
/-
  The reference's result is the whole product.

  The reference is one host contraction of the two arrays: the matrices are paired by their first coordinate, the
  left operand's last axis is summed against the right operand's middle axis.  Read at an entry (b, c, s) over the
  extended reals it is Σ_k x[b, c, k] · p[b, k, s], which is `Cert.Product.ofArrays` word for word; the only work is
  to see that the operand indices the read-back names are the coordinates (b, c, k) and (b, k, s).
-/
import proofs.«164552_j26577257627700_2_alg».proof.Proof.Gen.ReferenceIdeal.Read
import proofs.«164552_j26577257627700_2_alg».proof.Proof.Product

noncomputable section

namespace Cert.ReferenceIdeal.RefValue

open Cert.ReferenceIdeal Cert.ReferenceIdeal.Gen Cert.ReferenceIdeal.Read Idealize.ShloMosaic Idealize.ShloMosaic.ValueIdx

/-- The host contraction of the two arrays, as a function of them, is the whole product, entry by entry. -/
theorem result_eq (x0 : (⟨S32x256x256, .f32⟩ : BufTy).Contents (Elt Ideal)) (x1 : (⟨S32x256x2048, .f32⟩ : BufTy).Contents (Elt Ideal)) :
    val_main_v0 (F := Ideal) x0 x1 = Cert.Product.ofArrays x0 x1 := by
  funext i
  rw [val_main_v0_apply]
  unfold Cert.Product.ofArrays
  refine Finset.sum_congr rfl fun k _ => ?_
  have el : lidx_main_v0 i k = ix3 (n0 := 32) (n1 := 256) (n2 := 256) (i 0) (i 1) k := funext fun a => by
    match a with
    | ⟨0, _⟩ => rfl
    | ⟨1, _⟩ => rfl
    | ⟨2, _⟩ => rfl
  have er : ridx_main_v0 i k = ix3 (n0 := 32) (n1 := 256) (n2 := 2048) (i 0) k (i 2) := funext fun a => by
    match a with
    | ⟨0, _⟩ => rfl
    | ⟨1, _⟩ => rfl
    | ⟨2, _⟩ => rfl
  rw [el, er]

end Cert.ReferenceIdeal.RefValue

end
-- ==== Proof.lean ====
/-
  A length regulator as a batched matrix product: out[b, c, s] = Σ_t x[b, c, t] · path[b, t, s] for 32 pairs of a
  256 × 256 matrix `x[b]` and a 256 × 2048 matrix `path[b]`.

  The reference is one host contraction of the two arrays.  The kernel runs on a grid of eight points; point t holds
  matrices 4t … 4t+3 of both operands, cuts the 2048 columns of `path` into four slabs of 512, multiplies each slab
  (after a change of float format, into a zero accumulator) and stores the four results side by side.  Over the
  extended reals the change of format is the identity and zero plus a sum is the sum, so every entry the kernel
  writes is the same finite sum of the same 256 products the reference's contraction has there: the two programs
  compute one function of the arguments, `Cert.Product.ofArrays`.  Nothing beyond commutativity and associativity
  of the sum is used (no term is moved across a product), so the finiteness of the inputs is never opened.

  The modules: `Proof/Product.lean` states the product, for whole arrays and for one block of four matrices, and
  that a block of the whole product is the product of the blocks; `Proof/KernelBlock.lean` reads the body's four
  stores as the block product; `Proof/KernelArray.lean` carries the eight blocks to the whole result array;
  `Proof/ReferenceProduct.lean` reads the host contraction as the whole product.  Here the five claims are put
  together: the three frames (each program runs to the end, faults nowhere and leaves its arguments as they were),
  the idealization's ledger (empty: nothing was rewritten), and the equality of the two results.
-/
import proofs.«164552_j26577257627700_2_alg».proof.Defs
import proofs.«164552_j26577257627700_2_alg».proof.Proof.Gen.Kernel
import proofs.«164552_j26577257627700_2_alg».proof.Proof.Gen.Kernel.Skeleton
import proofs.«164552_j26577257627700_2_alg».proof.Proof.Gen.Kernel.Launch
import proofs.«164552_j26577257627700_2_alg».proof.Proof.Gen.Kernel.Points
import proofs.«164552_j26577257627700_2_alg».proof.Proof.Gen.Kernel.Frame
import proofs.«164552_j26577257627700_2_alg».proof.Proof.Gen.KernelIdeal
import proofs.«164552_j26577257627700_2_alg».proof.Proof.Gen.KernelIdeal.Skeleton
import proofs.«164552_j26577257627700_2_alg».proof.Proof.Gen.KernelIdeal.Launch
import proofs.«164552_j26577257627700_2_alg».proof.Proof.Gen.KernelIdeal.Points
import proofs.«164552_j26577257627700_2_alg».proof.Proof.Gen.KernelIdeal.Frame
import proofs.«164552_j26577257627700_2_alg».proof.Proof.Gen.ReferenceIdeal
import proofs.«164552_j26577257627700_2_alg».proof.Proof.Gen.Pre_finite_inputs
import proofs.«164552_j26577257627700_2_alg».proof.Proof.Gen.KernelIdeal.Value
import proofs.«164552_j26577257627700_2_alg».proof.Proof.Gen.ReferenceIdeal.Run
import proofs.«164552_j26577257627700_2_alg».proof.Proof.Gen.ReferenceIdeal.Read
import proofs.«164552_j26577257627700_2_alg».proof.Proof.Product
import proofs.«164552_j26577257627700_2_alg».proof.Proof.KernelBlock
import proofs.«164552_j26577257627700_2_alg».proof.Proof.KernelArray
import proofs.«164552_j26577257627700_2_alg».proof.Proof.ReferenceProduct
import Idealize.ShloMosaic.Adequacy
import Idealize.ShloMosaic.Init

noncomputable section

namespace Cert.Proof

open Idealize.ShloMosaic Idealize.SL.Sem

/-- The kernel as printed, at the machine's words: it runs and leaves its arguments unchanged. -/
theorem frame_kernel : Cert.frame_Kernel := fun m ρ _ => Cert.Kernel.Gen.frame m ρ

/-- The same program read over the extended reals. -/
theorem frame_kernelIdeal : Cert.frame_KernelIdeal := fun m ρ _ => Cert.KernelIdeal.Gen.frame m ρ

/-- The reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten on the way to the idealized kernel, so there is nothing to restate. -/
theorem preserves : Cert.preserves_Kernel_KernelIdeal := trivial

/-- From memories that agree on the arguments both programs end with the result array at the whole product of
    the arguments: the kernel block by block, the reference in one contraction. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
